-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S50000x128 .f32) (main_arg1 : IVec S2x800000 32) (main_arg2 : FVec F S800000 .f32) (main_arg3 : FVec F S128x128 .f32) (main_arg4 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩

abbrev nBuf : Space → Nat
  | .hbm => 65
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S50000, .i32⟩
  | .hbm, ⟨10, _⟩ => ⟨S850000, .i32⟩
  | .hbm, ⟨11, _⟩ => ⟨S850000, .i32⟩
  | .hbm, ⟨12, _⟩ => ⟨S_, .f32⟩
  | .hbm, ⟨13, _⟩ => ⟨S50000, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S50000x128, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x128, .f32⟩
  | .hbm, ⟨57, _⟩ => ⟨S850000x1, .f32⟩
  | .hbm, ⟨58, _⟩ => ⟨S850000x128, .f32⟩
  | .hbm, ⟨59, _⟩ => ⟨S850000x128, .f32⟩
  | .hbm, ⟨60, _⟩ => ⟨S_, .f32⟩
  | .hbm, ⟨61, _⟩ => ⟨S50000x128, .f32⟩
  | .hbm, ⟨62, _⟩ => ⟨S850000x1, .i32⟩
  | .hbm, ⟨63, _⟩ => ⟨S50000x128, .f32⟩
  | .hbm, ⟨64, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_6 : Ref sig .tc := ⟨.hbm, 48, rfl⟩
abbrev main_v33 : Ref sig .tc := ⟨.hbm, 49, rfl⟩
abbrev main_v34 : Ref sig .tc := ⟨.hbm, 50, rfl⟩
abbrev main_c_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  shapeCasts_S5000x128_S5000x128 : S5000x128.ShapeCasts S5000x128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 70
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S50000, .i32⟩
  | .hbm, ⟨10, _⟩ => ⟨S850000, .i32⟩
  | .hbm, ⟨11, _⟩ => ⟨S850000, .i32⟩
  | .hbm, ⟨12, _⟩ => ⟨S_, .f32⟩
  | .hbm, ⟨13, _⟩ => ⟨S50000, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S50000x128, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x128, .f32⟩
  | .hbm, ⟨57, _⟩ => ⟨S850000x1, .f32⟩
  | .hbm, ⟨58, _⟩ => ⟨S850000x128, .f32⟩
  | .hbm, ⟨59, _⟩ => ⟨S850000x128, .f32⟩
  | .hbm, ⟨60, _⟩ => ⟨S_, .f32⟩
  | .hbm, ⟨61, _⟩ => ⟨S50000x128, .f32⟩
  | .hbm, ⟨62, _⟩ => ⟨S850000x1, .i32⟩
  | .hbm, ⟨63, _⟩ => ⟨S50000x128, .f32⟩
  | .hbm, ⟨64, _⟩ => ⟨S1x128, .f32⟩
  | .hbm, ⟨65, _⟩ => ⟨S50000x128, .f32⟩
  | .hbm, ⟨66, _⟩ => ⟨S50000x128, .f32⟩
  | .hbm, ⟨67, _⟩ => ⟨S_, .f32⟩
  | .hbm, ⟨68, _⟩ => ⟨S50000x128, .f32⟩
  | .hbm, ⟨69, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_6 : Ref sig .tc := ⟨.hbm, 48, rfl⟩
abbrev main_v33 : Ref sig .tc := ⟨.hbm, 49, rfl⟩
abbrev main_v34 : Ref sig .tc := ⟨.hbm, 50, rfl⟩
abbrev main_c_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_call1_cst : Ref sig .tc := ⟨.hbm, 67, rfl⟩
abbrev main_call1_v0 : Ref sig .tc := ⟨.hbm, 68, rfl⟩
abbrev main_v49 : Ref sig .tc := ⟨.hbm, 69, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.Spec.lean ====
/-
  One graph-convolution layer as a composition of three maps of its arguments.

  With x the node features [50000, 128], W the weight matrix [128, 128], b the bias [128], and the edge
  list and edge weights fixing a normalised adjacency:

    h   = x · W                      (the projection: h (i, j) = sum over k of x (i, k) * W (k, j))
    y   = agg h                      (the aggregation: gather the rows of h at the source nodes, scale row
                                      e by the normalised weight of edge e, add the rows into their
                                      destination nodes)
    out = max (y + b, 0)             (bias along the rows, then the positive part)

  The aggregation depends on h only through the gather of its rows: everything else in it (the
  concatenated edge lists with the self-loops, the weighted degrees, their inverse square roots, the
  per-edge weights) is a function of the edge list and the edge weights alone. Hence, for fixed edges and
  weights, the layer is a function of h and b, and two computations of it agree as soon as their
  projections h agree index by index — whether h is formed block of rows by block of rows or whole.
-/
import proofs.«112175_j70162585747786_1_alg».proof.Proof.Gen.ReferenceIdeal.Read

noncomputable section

namespace Cert.GraphConv

open Cert.ReferenceIdeal Cert.ReferenceIdeal.Gen Cert.ReferenceIdeal.Read Idealize.ShloMosaic

variable {F : FTy → Type} [FloatOps F]

/-- The aggregation as a function of the projected features `h`: the rows of `h` gathered at the source
    nodes, each scaled by its edge's normalised weight, scattered-and-added into the destination nodes. -/
def agg (h : (⟨S50000x128, .f32⟩ : BufTy).Contents (Elt F)) (x1 : (⟨S2x800000, .i32⟩ : BufTy).Contents (Elt F))
    (x2 : (⟨S800000, .f32⟩ : BufTy).Contents (Elt F)) : (⟨S50000x128, .f32⟩ : BufTy).Contents (Elt F) :=
  Host.scatterAdd scatter_S50000x128_S850000x1_S850000x128_1_0_0_1 (val_main_v43 (F := F)) (val_main_v44 (F := F) x1)
    (mulf (Host.gather gather_S50000x128_S850000x1_S850000x128_1_0_n_n_0_1_1128 h (val_main_v38 (F := F) x1))
      (val_main_v41 (F := F) x1 x2))

/-- The bias added along the rows and the positive part taken, as a function of the aggregate `y` and the bias. -/
def biasRelu (y : (⟨S50000x128, .f32⟩ : BufTy).Contents (Elt F)) (x4 : (⟨S128, .f32⟩ : BufTy).Contents (Elt F)) :
    (⟨S50000x128, .f32⟩ : BufTy).Contents (Elt F) :=
  maximumf (addf y (val_main_v47 (F := F) x4)) (val_main_call1_v0 (F := F))

/-- The layer: the projection, the aggregation, the bias and the positive part. -/
def layer (x0 : (⟨S50000x128, .f32⟩ : BufTy).Contents (Elt F)) (x1 : (⟨S2x800000, .i32⟩ : BufTy).Contents (Elt F))
    (x2 : (⟨S800000, .f32⟩ : BufTy).Contents (Elt F)) (x3 : (⟨S128x128, .f32⟩ : BufTy).Contents (Elt F))
    (x4 : (⟨S128, .f32⟩ : BufTy).Contents (Elt F)) : (⟨S50000x128, .f32⟩ : BufTy).Contents (Elt F) :=
  biasRelu (agg (val_main_v32 (F := F) x0 x3) x1 x2) x4

/-- The reference's last stage is the layer: its aggregate is `agg` of its matrix product. -/
theorem stage_eq_layer (x0 : (⟨S50000x128, .f32⟩ : BufTy).Contents (Elt F)) (x1 : (⟨S2x800000, .i32⟩ : BufTy).Contents (Elt F))
    (x2 : (⟨S800000, .f32⟩ : BufTy).Contents (Elt F)) (x3 : (⟨S128x128, .f32⟩ : BufTy).Contents (Elt F))
    (x4 : (⟨S128, .f32⟩ : BufTy).Contents (Elt F)) :
    val_main_v49 (F := F) x0 x1 x2 x3 x4 = layer x0 x1 x2 x3 x4 := rfl

end Cert.GraphConv

end
-- ==== Proof.KernelRun.lean ====
/-
  The run of the two-region program with its result named.

  @main is six segments: three stretches of host operations, the projection's region, one more stretch
  (the aggregation), and the bias region. The contents of every unscoped TensorCore buffer at each segment
  boundary are a fold from the launch memory; at the last boundary the result buffer, which is the bias
  region's output array, holds what that region's write-backs leave of it, and the five argument buffers
  hold what they held at launch. Every weakly fair execution terminates in a memory that agrees with the
  last boundary's contents on every unscoped buffer, so it has the result buffer at that array.
-/
import proofs.«112175_j70162585747786_1_alg».proof.Proof.Gen.KernelIdeal.Frame

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, in a memory whose unscoped TensorCore
    buffers hold the last segment boundary's contents: any property of such a memory holds of the final state. -/
theorem run_final {Q : PUnit × MemSt nD τ sig (Elt F) → Prop}
    (hQ : ∀ s : MemSt nD τ sig (Elt F),
      (∀ c : Dev nD, ∀ b ∈ Pipeline.ucRefs τ sig, s.mem (((c : Thread nD τ)).1, b) = W6 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := hQ)

/-- The run with the result named: the result buffer ends at what the bias region's write-backs leave of its
    output array, from the contents the region was entered with; the arguments end as launched. -/
theorem run : θ_run defs (onTc (τ := τ) (main (F := F))) ⟨m, fun _ => 0, ρ⟩ (fun r => ∀ c : Dev nD,
      r.2.mem ((c.tc : Thread nD τ).loc main_v46) = (dat1 (V5 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  run_final m ρ fun s h c =>
    ⟨(h c _ (mem_uc main_v46 (by decide))).trans (W6_arr m ρ c 2),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c)⟩

end Cert.KernelIdeal.Named

end
-- ==== Proof.LibPlainDot.lean ====
/-
  A plain matrix product read at an index, over the extended reals.

  For the dimension numbers of an M×K by K×N product (contract the left operand's second axis with the
  right operand's first; no batch axes) the entry (i, j) of the product is the sum over k of
  lhs (i, k) · rhs (k, j): stated once for a `tpu.matmul` accumulating into the zero splat and once for
  the host's `dot_general`, for any extents M, K, N. The contraction index of such a product has one
  axis of extent K, and the sum over it is re-indexed by that coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable {M K N : Nat}

/-- The left operand's row coordinate is the result's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, show 0 < (DotDims.plain M K N).contr.rank from Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, show 0 < (DotDims.plain M K N).contr.rank from Nat.one_pos⟩).val :=
  (DotDims.plain M K N).rhsIdx_val_of_single rfl j q

/-- The right operand's column coordinate is the result's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction index of a plain product is the sum over k of lhs (i, k) · rhs (k, j). -/
theorem sum_contr (lhs : (⟨2, ![M, K]⟩ : Shape).Idx → EReal) (rhs : (⟨2, ![K, N]⟩ : Shape).Idx → EReal)
    (i : Fin M) (j : Fin N) :
    (∑ q : (DotDims.plain M K N).contr.Idx,
        lhs ((DotDims.plain M K N).lhsIdx (ix2 i j) q) * rhs ((DotDims.plain M K N).rhsIdx (ix2 i j) q))
      = ∑ k : Fin K, lhs (ix2 i k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

/-- A `tpu.matmul` of plain dimension numbers into the zero splat, at (i, j): the sum over k of the products. -/
theorem matmul_zero_apply {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) :=
  (Ideal.matmul_constant_zero_apply (DotDims.plain M K N) prec lhs rhs (ix2 i j)).trans (sum_contr lhs rhs i j)

/-- The host's `dot_general` of plain dimension numbers, at (i, j): the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (i : Fin M) (j : Fin N) :
    FloatOps.dotGeneral (DotDims.plain M K N) prec sched lhs rhs (ix2 i j)
      = ∑ k : Fin K, lhs (ix2 i k) * rhs (ix2 k j) :=
  (Ideal.dotGeneral_apply (DotDims.plain M K N) prec sched lhs rhs (ix2 i j)).trans (sum_contr lhs rhs i j)

end Idealize.ShloMosaic.PlainDot

end
-- ==== Proof.ProjRegion.lean ====
/-
  The projection region's output array.

  The region walks the node features x [50000, 128] in ten blocks of 5000 rows; at each block it multiplies the
  block by the whole weight matrix W [128, 128] into a zero accumulator, its operands first rounded to a
  narrower format, which over the extended reals is the identity. So entry (p, q) of the block it writes back
  is the sum over k of x_block (p, k) * W (k, q). Block t of x is rows 5000·t … 5000·t + 4999, the weight
  window is the whole matrix at every point, and block t of the output lies over the same rows: what point t
  writes back is block t of the whole product x · W, whose entry (i, q) is the sum over k of
  x (i, k) * W (k, q) — each row of a product depends on that row of the left factor only. The ten blocks
  tile the output, so after the region the output array IS the whole product.
-/
import proofs.«112175_j70162585747786_1_alg».proof.Proof.Gen.KernelIdeal.Frame
import proofs.«112175_j70162585747786_1_alg».proof.Proof.Spec
import proofs.«112175_j70162585747786_1_alg».proof.Proof.LibPlainDot
import Idealize.ShloMosaic.Lib.Pipeline.Value
import Idealize.ShloMosaic.Lib.ValueIdx

noncomputable section

open scoped BigOperators

namespace Cert.KernelIdeal.ProjRegion

open Cert.KernelIdeal Cert.KernelIdeal.Gen
open Idealize.ShloMosaic Idealize.ShloMosaic.TcCoe Idealize.ShloMosaic.ValueIdx Idealize.SL.Sem

/-- The body's result at (p, q): the block's row p against the weight's column q. -/
theorem pay_apply (x : Vec Ideal S5000x128 .f32) (w : Vec Ideal S128x128 .f32) (p : Fin 5000) (q : Fin 128) :
    k0_pay1 (F := Ideal) x w (ix2 p q) = ∑ k : Fin 128, x (ix2 p k) * w (ix2 k q) := by
  unfold k0_pay1
  exact PlainDot.matmul_zero_apply (M := 5000) (K := 128) (N := 128) none
    (truncf .bf16 x bitsLt_bf16_f32) (truncf .bf16 w bitsLt_bf16_f32) p q

/-- The same at an index given whole, its coordinates named. -/
theorem pay_at (x : Vec Ideal S5000x128 .f32) (w : Vec Ideal S128x128 .f32) (j : S5000x128.Idx) (p : Fin 5000) (q : Fin 128)
    (hp : (j 0).val = p.val) (hq : (j 1).val = q.val) :
    k0_pay1 (F := Ideal) x w j = ∑ k : Fin 128, x (ix2 p k) * w (ix2 k q) := by
  obtain ⟨p', q', rfl⟩ : ∃ (p' : Fin 5000) (q' : Fin 128), j = ix2 p' q' := ⟨j 0, j 1, eq_ix2 j⟩
  obtain rfl : p' = p := Fin.ext hp
  obtain rfl : q' = q := Fin.ext hq
  exact pay_apply x w p' q'

/-- The whole product at (r, q): the features' row r against the weight's column q. -/
theorem proj_apply (X : (⟨Cert.ReferenceIdeal.S50000x128, .f32⟩ : BufTy).Contents (Elt Ideal))
    (W : (⟨Cert.ReferenceIdeal.S128x128, .f32⟩ : BufTy).Contents (Elt Ideal)) (r : Fin 50000) (q : Fin 128) :
    Cert.ReferenceIdeal.Read.val_main_v32 (F := Ideal) X W (ix2 r q) = ∑ k : Fin 128, X (ix2 r k) * W (ix2 k q) := by
  unfold Cert.ReferenceIdeal.Read.val_main_v32
  exact PlainDot.dotGeneral_apply (M := 50000) (K := 128) (N := 128) none .single X W r q

/-- The same at an index given whole, its coordinates named. -/
theorem proj_at (X : (⟨Cert.ReferenceIdeal.S50000x128, .f32⟩ : BufTy).Contents (Elt Ideal))
    (W : (⟨Cert.ReferenceIdeal.S128x128, .f32⟩ : BufTy).Contents (Elt Ideal)) (i : Cert.ReferenceIdeal.S50000x128.Idx)
    (r : Fin 50000) (q : Fin 128) (hr : (i 0).val = r.val) (hq : (i 1).val = q.val) :
    Cert.ReferenceIdeal.Read.val_main_v32 (F := Ideal) X W i = ∑ k : Fin 128, X (ix2 r k) * W (ix2 k q) := by
  obtain ⟨r', q', rfl⟩ : ∃ (r' : Fin 50000) (q' : Fin 128), i = ix2 r' q' := ⟨i 0, i 1, eq_ix2 i⟩
  obtain rfl : r' = r := Fin.ext hr
  obtain rfl : q' = q := Fin.ext hq
  exact proj_apply X W r' q'

section Region

variable (V : (c : Dev nD) → (b : Ref sig .tc) → Buf (Elt Ideal) ((c : Thread nD τ).loc b))

theorem origin2 : (![0, 0] : Fin 2 → Nat) = fun _ => 0 := funext fun a => by fin_cases a <;> rfl

/-- The index maps over the grid: at point t the features' block and the output's block are block t of the rows
    and the one block of the columns; the weight window is its one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product of the features and the weight as the region finds them. -/
theorem flushed_eq (c : Dev nD) (t : Fin cfg0.N) :
    (dat0 V c).flushed 2 t
      = ((cfg0.win 2).blk t).view.read (Elt Ideal)
          (Cert.ReferenceIdeal.Read.val_main_v32 (F := Ideal) (V c main_arg0) (V c main_arg3)) := by
  show (cfg0.win 2).cut (grid0.coords t) ((dat0 V c).after 2 t) = _
  rw [after0_2]
  unfold out0_2
  rw [View.canon_unit_zero origin2]
  simp only [View.ld_unit_zero (S := S5000x128) origin2, View.ld_unit_zero (S := S128x128) origin2]
  funext j
  obtain ⟨e0, e1, e2, e3, e4, e5⟩ := idx_facts t
  have hj0 : (j 0).val < 5000 := (j 0).isLt
  have hj1 : (j 1).val < 128 := (j 1).isLt
  have htN : t.val < 10 := Nat.lt_of_lt_of_eq t.isLt N_0
  have hr : t.val * 5000 + (j 0).val < 50000 := by omega
  show k0_pay1 (F := Ideal) (iblk0 V c 0 t) (iblk0 V c 1 t) j
    = Cert.ReferenceIdeal.Read.val_main_v32 (F := Ideal) (V c main_arg0) (V c main_arg3) (((cfg0.win 2).blk t).view.emb j)
  refine (pay_at (iblk0 V c 0 t) (iblk0 V c 1 t) j ⟨(j 0).val, hj0⟩ ⟨(j 1).val, hj1⟩ rfl rfl).trans ?_
  refine Eq.trans ?_ (proj_at (V c main_arg0) (V c main_arg3) (((cfg0.win 2).blk t).view.emb j)
    ⟨t.val * 5000 + (j 0).val, hr⟩ ⟨(j 1).val, hj1⟩
    (by show win0_2.index t (0 : Fin 2) * 5000 + 1 * (j 0).val = t.val * 5000 + (j 0).val; omega)
    (by show win0_2.index t (1 : Fin 2) * 128 + 1 * (j 1).val = (j 1).val; omega)).symm
  refine Finset.sum_congr rfl fun k _ => ?_
  have hk : k.val < 128 := k.isLt
  have hx : iblk0 V c 0 t (ix2 (n0 := 5000) (n1 := 128) ⟨(j 0).val, hj0⟩ k)
      = V c main_arg0 (ix2 (n0 := 50000) (n1 := 128) ⟨t.val * 5000 + (j 0).val, hr⟩ k) := by
    show V c main_arg0 (((cfg0.win 0).blk t).view.emb (ix2 (n0 := 5000) (n1 := 128) ⟨(j 0).val, hj0⟩ k)) = _
    refine congrArg _ (funext fun a => Fin.ext ?_)
    match a with
    | ⟨0, _⟩ => show win0_0.index t (0 : Fin 2) * 5000 + 1 * (j 0).val = t.val * 5000 + (j 0).val; omega
    | ⟨1, _⟩ => show win0_0.index t (1 : Fin 2) * 128 + 1 * k.val = k.val; omega
  have hw : iblk0 V c 1 t (ix2 (n0 := 128) (n1 := 128) k ⟨(j 1).val, hj1⟩)
      = V c main_arg3 (ix2 (n0 := 128) (n1 := 128) k ⟨(j 1).val, hj1⟩) := by
    show V c main_arg3 (((cfg0.win 1).blk t).view.emb (ix2 (n0 := 128) (n1 := 128) k ⟨(j 1).val, hj1⟩)) = _
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * (j 1).val = (j 1).val; omega
  rw [hx, hw]

/-- An index of the output array is in point t's block iff each coordinate is in the block's range on its axis. -/
theorem mem_blk (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v32).slice (win0_2.rect t)).set ↔ _
  rw [View.set_slice_whole, Rect.mem_set_unit]
  exact Iff.rfl

/-- The ten blocks tile the output: row r lies in the block of point r / 5000. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have ht : (i 0).val / 5000 < cfg0.N := by show _ < grid0.N; rw [N_0]; omega
  obtain ⟨e0, e1, e2, e3, e4, e5⟩ := idx_facts ⟨(i 0).val / 5000, ht⟩
  have e4' : win0_2.index ⟨(i 0).val / 5000, ht⟩ (0 : Fin 2) = (i 0).val / 5000 := e4
  refine ⟨⟨(i 0).val / 5000, ht⟩, flush0_2 _, ?_⟩
  rw [mem_blk]
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    omega
  | ⟨1, _⟩ =>
    show win0_2.index ⟨(i 0).val / 5000, ht⟩ (1 : Fin 2) * 128 ≤ (i 1).val
      ∧ (i 1).val < win0_2.index ⟨(i 0).val / 5000, ht⟩ (1 : Fin 2) * 128 + 128
    omega

/-- After the region its output array is the whole product of the features and the weight as the region found them. -/
theorem final (c : Dev nD) :
    (dat0 V c).arrAt 2 cfg0.N = Cert.ReferenceIdeal.Read.val_main_v32 (F := Ideal) (V c main_arg0) (V c main_arg3) :=
  (dat0 V c).arrAt_eq_of_cover 2 _ (fun t _ => flushed_eq V c t) cover

end Region

end Cert.KernelIdeal.ProjRegion

end
-- ==== Proof.BiasRegion.lean ====
/-
  The bias region's output array.

  The region walks the aggregate y [50000, 128] in ten blocks of 5000 rows; at each block it adds the bias
  b [128] along the rows and takes the positive part: entry (p, q) of the block it writes back is
  max (y_block (p, q) + b (q), 0). Block t of y is rows 5000·t … 5000·t + 4999, the bias window is the whole
  bias at every point, and block t of the output lies over the same rows. So what point t writes back is
  block t of the one function (i, q) ↦ max (y (i, q) + b (q), 0) of the whole arrays, and the ten blocks tile
  the output: after the region the output array IS that function.
-/
import proofs.«112175_j70162585747786_1_alg».proof.Proof.Gen.KernelIdeal.Frame
import proofs.«112175_j70162585747786_1_alg».proof.Proof.Spec
import Idealize.ShloMosaic.Lib.Pipeline.Value
import Idealize.ShloMosaic.Lib.ValueIdx
import Idealize.ShloMosaic.Lib.ValueLayout

noncomputable section

namespace Cert.KernelIdeal.BiasRegion

open Cert.KernelIdeal Cert.KernelIdeal.Gen
open Idealize.ShloMosaic Idealize.ShloMosaic.TcCoe Idealize.ShloMosaic.ValueIdx Idealize.SL.Sem

/-- The body's result at (p, q): the block's entry plus the bias at q, or zero if that is negative. -/
theorem pay_apply (b : Vec Ideal S128 .f32) (y : Vec Ideal S5000x128 .f32) (p : Fin 5000) (q : Fin 128) :
    k1_pay1 (F := Ideal) b y (ix2 p q) = max (y (ix2 p q) + b (ix1 q)) (FloatOps.ofBits (F := Ideal) .f32 0x00000000#32) := by
  unfold k1_pay1
  rw [maximumf_apply, addf_apply, shapeCast_self, broadcastTo_1b_ab_apply, shapeCast_a_1a_apply]
  rfl

/-- The same at an index given whole, its column named. -/
theorem pay_at (b : Vec Ideal S128 .f32) (y : Vec Ideal S5000x128 .f32) (j : S5000x128.Idx) (q : Fin 128)
    (hq : (j 1).val = q.val) :
    k1_pay1 (F := Ideal) b y j = max (y j + b (ix1 q)) (FloatOps.ofBits (F := Ideal) .f32 0x00000000#32) := by
  obtain ⟨p, q', rfl⟩ : ∃ (p : Fin 5000) (q' : Fin 128), j = ix2 p q' := ⟨j 0, j 1, eq_ix2 j⟩
  obtain rfl : q' = q := Fin.ext hq
  exact pay_apply b y p q'

/-- The layer's last map at (i, q): the aggregate's entry plus the bias at q, or zero if that is negative. -/
theorem biasRelu_apply (Y : (⟨Cert.ReferenceIdeal.S50000x128, .f32⟩ : BufTy).Contents (Elt Ideal))
    (B : (⟨Cert.ReferenceIdeal.S128, .f32⟩ : BufTy).Contents (Elt Ideal)) (i : Fin 50000) (q : Fin 128) :
    Cert.GraphConv.biasRelu (F := Ideal) Y B (ix2 i q)
      = max (Y (ix2 i q) + B (ix1 q)) (FloatOps.ofBits (F := Ideal) .f32 0x00000000#32) := by
  unfold Cert.GraphConv.biasRelu
  have e : Cert.ReferenceIdeal.Read.idx_main_v46 (Cert.ReferenceIdeal.Read.idx_main_v47 (ix2 i q)) = ix1 q :=
    funext fun a => Fin.ext (by match a with | ⟨0, _⟩ => rfl)
  rw [maximumf_apply, addf_apply, Cert.ReferenceIdeal.Read.val_main_v47_apply, Cert.ReferenceIdeal.Read.val_main_v46_apply,
    Cert.ReferenceIdeal.Read.val_main_call1_v0_apply, Cert.ReferenceIdeal.Read.val_main_call1_cst_apply, e]

/-- The same at an index given whole, its column named. -/
theorem biasRelu_at (Y : (⟨Cert.ReferenceIdeal.S50000x128, .f32⟩ : BufTy).Contents (Elt Ideal))
    (B : (⟨Cert.ReferenceIdeal.S128, .f32⟩ : BufTy).Contents (Elt Ideal)) (i : Cert.ReferenceIdeal.S50000x128.Idx) (q : Fin 128)
    (hq : (i 1).val = q.val) :
    Cert.GraphConv.biasRelu (F := Ideal) Y B i = max (Y i + B (ix1 q)) (FloatOps.ofBits (F := Ideal) .f32 0x00000000#32) := by
  obtain ⟨r, q', rfl⟩ : ∃ (r : Fin 50000) (q' : Fin 128), i = ix2 r q' := ⟨i 0, i 1, eq_ix2 i⟩
  obtain rfl : q' = q := Fin.ext hq
  exact biasRelu_apply Y B r q'

section Region

variable (V : (c : Dev nD) → (b : Ref sig .tc) → Buf (Elt Ideal) ((c : Thread nD τ).loc b))

theorem origin2 : (![0, 0] : Fin 2 → Nat) = fun _ => 0 := funext fun a => by fin_cases a <;> rfl
theorem origin1 : (![0] : Fin 1 → Nat) = fun _ => 0 := funext fun a => by fin_cases a <;> rfl

/-- The index maps over the grid: at point t the aggregate's block and the output's block are block t of the
    rows and the one block of the columns; the bias window is its one block. -/
theorem idx_facts : ∀ t : Fin cfg1.N, win1_0.index t (0 : Fin 2) = t.val ∧ win1_0.index t (1 : Fin 2) = 0
    ∧ win1_1.index t (0 : Fin 1) = 0 ∧ win1_2.index t (0 : Fin 2) = t.val ∧ win1_2.index t (1 : Fin 2) = 0 :=
  (by decide +kernel : ∀ t : Fin grid1.N, _)

/-- What point t writes back is block t of the layer's last map of the aggregate and the bias as the region finds them. -/
theorem flushed_eq (c : Dev nD) (t : Fin cfg1.N) :
    (dat1 V c).flushed 2 t
      = ((cfg1.win 2).blk t).view.read (Elt Ideal) (Cert.GraphConv.biasRelu (F := Ideal) (V c main_v45) (V c main_arg4)) := by
  show (cfg1.win 2).cut (grid1.coords t) ((dat1 V c).after 2 t) = _
  rw [after1_2]
  unfold out1_2
  rw [View.canon_unit_zero origin2]
  simp only [View.ld_unit_zero (S := S5000x128) origin2, View.ld_unit_zero (S := S128) origin1]
  funext j
  obtain ⟨e0, e1, e2, e3, e4⟩ := idx_facts t
  have hj0 : (j 0).val < 5000 := (j 0).isLt
  have hj1 : (j 1).val < 128 := (j 1).isLt
  show k1_pay1 (F := Ideal) (iblk1 V c 1 t) (iblk1 V c 0 t) j
    = Cert.GraphConv.biasRelu (F := Ideal) (V c main_v45) (V c main_arg4) (((cfg1.win 2).blk t).view.emb j)
  refine (pay_at (iblk1 V c 1 t) (iblk1 V c 0 t) j ⟨(j 1).val, hj1⟩ rfl).trans ?_
  refine Eq.trans ?_ (biasRelu_at (V c main_v45) (V c main_arg4) (((cfg1.win 2).blk t).view.emb j) ⟨(j 1).val, hj1⟩ (by
    show win1_2.index t (1 : Fin 2) * 128 + 1 * (j 1).val = (j 1).val; omega)).symm
  have hrow : iblk1 V c 0 t j = V c main_v45 (((cfg1.win 2).blk t).view.emb j) := by
    show V c main_v45 (((cfg1.win 0).blk t).view.emb j) = _
    refine congrArg _ (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  have hbias : iblk1 V c 1 t (ix1 (n := 128) ⟨(j 1).val, hj1⟩) = V c main_arg4 (ix1 (n := 128) ⟨(j 1).val, hj1⟩) := by
    show V c main_arg4 (((cfg1.win 1).blk t).view.emb (ix1 (n := 128) ⟨(j 1).val, hj1⟩)) = _
    refine congrArg _ (funext fun a => Fin.ext ?_)
    match a with
    | ⟨0, _⟩ => show win1_1.index t (0 : Fin 1) * 128 + 1 * (j 1).val = (j 1).val; omega
  rw [hrow, hbias]

/-- An index of the output array is in point t's block iff each coordinate is in the block's range on its axis. -/
theorem mem_blk (t : Fin cfg1.N) (i : S50000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v46).slice (win1_2.rect t)).set ↔ _
  rw [View.set_slice_whole, Rect.mem_set_unit]
  exact Iff.rfl

/-- The ten blocks tile the output: row r lies in the block of point r / 5000. -/
theorem cover (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  have ht : (i 0).val / 5000 < cfg1.N := by show _ < grid1.N; rw [N_1]; omega
  obtain ⟨e0, e1, e2, e3, e4⟩ := idx_facts ⟨(i 0).val / 5000, ht⟩
  have e3' : win1_2.index ⟨(i 0).val / 5000, ht⟩ (0 : Fin 2) = (i 0).val / 5000 := e3
  refine ⟨⟨(i 0).val / 5000, ht⟩, flush1_2 _, ?_⟩
  rw [mem_blk]
  intro a
  match a with
  | ⟨0, _⟩ =>
    show win1_2.index ⟨(i 0).val / 5000, ht⟩ (0 : Fin 2) * 5000 ≤ (i 0).val
      ∧ (i 0).val < win1_2.index ⟨(i 0).val / 5000, ht⟩ (0 : Fin 2) * 5000 + 5000
    omega
  | ⟨1, _⟩ =>
    show win1_2.index ⟨(i 0).val / 5000, ht⟩ (1 : Fin 2) * 128 ≤ (i 1).val
      ∧ (i 1).val < win1_2.index ⟨(i 0).val / 5000, ht⟩ (1 : Fin 2) * 128 + 128
    omega

/-- After the region its output array is the layer's last map of the aggregate and the bias as the region found them. -/
theorem final (c : Dev nD) :
    (dat1 V c).arrAt 2 cfg1.N = Cert.GraphConv.biasRelu (F := Ideal) (V c main_v45) (V c main_arg4) :=
  (dat1 V c).arrAt_eq_of_cover 2 _ (fun t _ => flushed_eq V c t) cover

end Region

end Cert.KernelIdeal.BiasRegion

end
-- ==== Proof.HostGlue.lean ====
/-
  The host operations around the two regions, read back.

  Before the projection's region the host builds, from the edge list and the edge weights alone, the source and
  destination node of every edge with the self-loops appended, and every edge's normalised weight. The region
  then leaves the projected features in its output array and touches nothing else. After it the host gathers
  the rows of the projected features at the source nodes, scales them by the normalised weights and adds them
  into their destination nodes. So the aggregate that the bias region is entered with is the aggregation map of
  the array the projection's region leaves, for the launch contents of the edge list and the edge weights; and the
  features, the weight matrix and the bias reach their regions as launched, no host operation writing them.
-/
import proofs.«112175_j70162585747786_1_alg».proof.Proof.Gen.KernelIdeal.Frame
import proofs.«112175_j70162585747786_1_alg».proof.Proof.Spec
import Idealize.ShloMosaic.Lib.StableHlo.Run

noncomputable section

namespace Cert.KernelIdeal.HostGlue

open Cert.KernelIdeal Cert.KernelIdeal.Gen
open Idealize.ShloMosaic Idealize.ShloMosaic.TcCoe Idealize.SL.Sem Idealize.ShloMosaic.StableHlo

variable {F : FTy → Type} [FloatOps F]

variable (m : (ℓ : Loc nD τ sig) → Buf (Elt F) ℓ) (ρ : Dev nD → PrngReg)

/-- The source nodes, self-loops appended, as the projection's region finds them: a function of the edge list. -/
theorem src_eq (c : Dev nD) :
    W3 m ρ c (Proc.devRef .tc main_v5)
      = Cert.ReferenceIdeal.Read.val_main_v5 (F := F) (m ((c : Thread nD τ).loc main_arg1)) := by
  dsimp only [W3, W2, W1, hostOps0_2, hostOps0_1, hostOps0]
  after_results_simp
  rfl

/-- The destination nodes, self-loops appended, as the projection's region finds them: a function of the edge list. -/
theorem dst_eq (c : Dev nD) :
    W3 m ρ c (Proc.devRef .tc main_v6)
      = Cert.ReferenceIdeal.Read.val_main_v6 (F := F) (m ((c : Thread nD τ).loc main_arg1)) := by
  dsimp only [W3, W2, W1, hostOps0_2, hostOps0_1, hostOps0]
  after_results_simp
  rfl

/-- Every edge's normalised weight as the projection's region finds it: a function of the edge list and the edge weights. -/
theorem norm_eq (c : Dev nD) :
    W3 m ρ c (Proc.devRef .tc main_v31)
      = Cert.ReferenceIdeal.Read.val_main_v31 (F := F) (m ((c : Thread nD τ).loc main_arg1)) (m ((c : Thread nD τ).loc main_arg2)) := by
  dsimp only [W3, W2, W1, hostOps0_2, hostOps0_1, hostOps0]
  after_results_simp
  rfl

/-- The projection's region finds the features as launched. -/
theorem feat_eq (c : Dev nD) : V3 m ρ c main_arg0 = m ((c : Thread nD τ).loc main_arg0) := by
  show W3 m ρ c (Proc.devRef .tc main_arg0) = _
  dsimp only [W3, W2, W1, hostOps0_2, hostOps0_1, hostOps0]
  after_results_simp

/-- The projection's region finds the weight matrix as launched. -/
theorem weight_eq (c : Dev nD) : V3 m ρ c main_arg3 = m ((c : Thread nD τ).loc main_arg3) := by
  show W3 m ρ c (Proc.devRef .tc main_arg3) = _
  dsimp only [W3, W2, W1, hostOps0_2, hostOps0_1, hostOps0]
  after_results_simp

/-- The bias region finds the bias as launched: neither the host nor the projection's region writes it. -/
theorem bias_eq (c : Dev nD) : V5 m ρ c main_arg4 = m ((c : Thread nD τ).loc main_arg4) := by
  show W5 m ρ c (Proc.devRef .tc main_arg4) = _
  have h4 : W4 m ρ c (Proc.devRef .tc main_arg4) = W3 m ρ c (Proc.devRef .tc main_arg4) := W4_of_ne m ρ c main_arg4 (by decide)
  have h3 : W3 m ρ c (Proc.devRef .tc main_arg4) = m ((c : Thread nD τ).loc main_arg4) := by
    dsimp only [W3, W2, W1, hostOps0_2, hostOps0_1, hostOps0]
    after_results_simp
  dsimp only [W5, hostOps1]
  after_results_simp
  exact h4.trans h3

/-- The aggregate the bias region is entered with is the aggregation map of the array the projection's region leaves,
    for the launch contents of the edge list and the edge weights. -/
theorem agg_eq (c : Dev nD) :
    V5 m ρ c main_v45
      = Cert.GraphConv.agg (F := F) (W4 m ρ c (Proc.devRef .tc main_v32))
          (m ((c : Thread nD τ).loc main_arg1)) (m ((c : Thread nD τ).loc main_arg2)) := by
  show W5 m ρ c (Proc.devRef .tc main_v45) = _
  have h5 : W4 m ρ c (Proc.devRef .tc main_v5) = W3 m ρ c (Proc.devRef .tc main_v5) := W4_of_ne m ρ c main_v5 (by decide)
  have h6 : W4 m ρ c (Proc.devRef .tc main_v6) = W3 m ρ c (Proc.devRef .tc main_v6) := W4_of_ne m ρ c main_v6 (by decide)
  have h31 : W4 m ρ c (Proc.devRef .tc main_v31) = W3 m ρ c (Proc.devRef .tc main_v31) := W4_of_ne m ρ c main_v31 (by decide)
  dsimp only [W5, hostOps1]
  after_results_simp
  rw [h5, h6, h31, src_eq, dst_eq, norm_eq]
  rfl

end Cert.KernelIdeal.HostGlue

end
-- ==== Proof.lean ====
/-
  A graph-convolution layer computed through two tiled regions equals the same layer computed whole, over the
  extended reals.

  Both programs compute, from node features x, an edge list, edge weights, a weight matrix W and a bias b,

    out = max (agg (x · W) + b, 0)

  where agg gathers the rows of its argument at the edges' source nodes, scales each by the edge's normalised
  weight and adds them into the edges' destination nodes; the self-loops, the weighted degrees and the normalised
  weights are functions of the edge list and the edge weights alone, and the two programs compute them by the
  same operations.

  One program forms x · W in ten blocks of 5000 rows, each block a product with the whole of W accumulated from
  zero, its operands first rounded to a narrower format — the identity over the extended reals. Row i of a
  product depends on row i of the left factor only, so the ten blocks are the ten row-blocks of the whole product,
  whose entry (i, q) is the sum over k of x (i, k) * W (k, q): the same sum the other program's single product is.
  That program then adds the bias and takes the positive part, again in ten blocks of rows, entry by entry:
  max (y (i, q) + b (q), 0), which is what the other program's row-broadcast sum and maximum with zero are at
  (i, q). No law beyond these two readings is used; in particular nothing is rearranged, so no finiteness of the
  inputs is needed.

  The idealized program is the printed program's own text read over the extended reals (no operation was
  rewritten), so there is nothing to show for its being the sanctioned idealization.
-/
import proofs.«112175_j70162585747786_1_alg».proof.Defs
import proofs.«112175_j70162585747786_1_alg».proof.Proof.Gen.Kernel
import proofs.«112175_j70162585747786_1_alg».proof.Proof.Gen.Kernel.Skeleton
import proofs.«112175_j70162585747786_1_alg».proof.Proof.Gen.Kernel.Launch
import proofs.«112175_j70162585747786_1_alg».proof.Proof.Gen.Kernel.Points
import proofs.«112175_j70162585747786_1_alg».proof.Proof.Gen.Kernel.Frame
import proofs.«112175_j70162585747786_1_alg».proof.Proof.Gen.KernelIdeal
import proofs.«112175_j70162585747786_1_alg».proof.Proof.Gen.KernelIdeal.Skeleton
import proofs.«112175_j70162585747786_1_alg».proof.Proof.Gen.KernelIdeal.Launch
import proofs.«112175_j70162585747786_1_alg».proof.Proof.Gen.KernelIdeal.Points
import proofs.«112175_j70162585747786_1_alg».proof.Proof.Gen.KernelIdeal.Frame
import proofs.«112175_j70162585747786_1_alg».proof.Proof.Gen.ReferenceIdeal
import proofs.«112175_j70162585747786_1_alg».proof.Proof.Gen.Pre_finite_inputs
import proofs.«112175_j70162585747786_1_alg».proof.Proof.Gen.ReferenceIdeal.Run
import proofs.«112175_j70162585747786_1_alg».proof.Proof.Gen.ReferenceIdeal.Read
import proofs.«112175_j70162585747786_1_alg».proof.Proof.Spec
import proofs.«112175_j70162585747786_1_alg».proof.Proof.KernelRun
import proofs.«112175_j70162585747786_1_alg».proof.Proof.ProjRegion
import proofs.«112175_j70162585747786_1_alg».proof.Proof.BiasRegion
import proofs.«112175_j70162585747786_1_alg».proof.Proof.HostGlue
import Idealize.ShloMosaic.Adequacy
import Idealize.ShloMosaic.Init

noncomputable section

namespace Cert.Proof

open Idealize.ShloMosaic Idealize.ShloMosaic.TcCoe Idealize.SL.Sem

/-! ## The two-region program's result is the layer of its arguments -/

section KernelValue

open Cert.KernelIdeal Cert.KernelIdeal.Gen

variable (m : (ℓ : Loc nD τ sig) → Buf (Elt Ideal) ℓ) (ρ : Dev nD → PrngReg)

/-- What the projection's region leaves in its output array is the whole product of the features and the weight
    matrix as launched. -/
theorem projected (c : Dev nD) :
    W4 m ρ c (Proc.devRef .tc main_v32)
      = Cert.ReferenceIdeal.Read.val_main_v32 (F := Ideal) (m ((c : Thread nD τ).loc main_arg0)) (m ((c : Thread nD τ).loc main_arg3)) :=
  (W4_arr m ρ c 2).trans ((Cert.KernelIdeal.ProjRegion.final (V3 m ρ) c).trans (by
    rw [Cert.KernelIdeal.HostGlue.feat_eq m ρ c, Cert.KernelIdeal.HostGlue.weight_eq m ρ c]))

/-- What the bias region leaves in its output array is the layer of the five arguments as launched. -/
theorem kernel_value (c : Dev nD) :
    (dat1 (V5 m ρ) c).arrAt 2 cfg1.N
      = Cert.GraphConv.layer (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  rw [Cert.KernelIdeal.BiasRegion.final (V5 m ρ) c, Cert.KernelIdeal.HostGlue.agg_eq m ρ c,
    Cert.KernelIdeal.HostGlue.bias_eq m ρ c, projected m ρ c]
  rfl

end KernelValue

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- No operation was rewritten: the idealized program is the printed one read over the extended reals. -/
theorem preserves : Cert.preserves_Kernel_KernelIdeal := trivial

/-- From memories agreeing on the arguments both programs end with the layer of those arguments in their result. -/
theorem algebraic : Cert.algebraic_KernelIdeal_ReferenceIdeal := by
  intro m ρ m' ρ' _ hagree
  refine ⟨fun c => Cert.GraphConv.layer (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono (fun r h c => ⟨(h c).1.trans (kernel_value m ρ c), (h c).2⟩)
      (Cert.KernelIdeal.Named.run (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v49_eq, Cert.GraphConv.stage_eq_layer, (hagree c).1, (hagree c).2.1,
      (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
